-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4x16384 : Shape := ⟨3, ![2048, 4, 16384]⟩
abbrev S4096x16384 : Shape := ⟨2, ![4096, 16384]⟩
abbrev S4096 : Shape := ⟨1, ![4096]⟩
abbrev S_ : Shape := ⟨0, ![]⟩

class Facts : Prop where
  bcast_S_S2048x4x16384 : S_.BroadcastsInDim S2048x4x16384 (![] : Fin 0 → Fin S2048x4x16384.rank)
  reducesTo_S2048x4x16384_S_d0_1_2 : S2048x4x16384.ReducesTo [0, 1, 2] S_
  h_S_ : 0 < S_.numel
  bcast_S_S4096x16384 : S_.BroadcastsInDim S4096x16384 (![] : Fin 0 → Fin S4096x16384.rank)
  reducesTo_S4096x16384_S_d0_1 : S4096x16384.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2048x4x16384 .f32) (main_arg1 : FVec F S4096x16384 .f32) (main_arg2 : FVec F S4096 .f32) : IVec S_ 1 :=
  let main_v0 : FVec F S2048x4x16384 .f32 := Host.absf main_arg0
  let main_cst : FVec F S_ .f32 := constant S_ .f32 0x7F800000#32
  let main_v1 : FVec F S2048x4x16384 .f32 := broadcastInDim S2048x4x16384 ![] bcast_S_S2048x4x16384 main_cst
  let main_v2 : IVec S2048x4x16384 1 := cmpf .olt main_v0 main_v1
  let main_c : IVec S_ 1 := constantI S_ 1 1#1
  let main_v3 : IVec S_ 1 := (fun x v => Host.reduce IntOp.andi x v reducesTo_S2048x4x16384_S_d0_1_2 h_S_) main_v2 main_c
  let main_v4 : FVec F S4096x16384 .f32 := Host.absf main_arg1
  let main_cst_0 : FVec F S_ .f32 := constant S_ .f32 0x7F800000#32
  let main_v5 : FVec F S4096x16384 .f32 := broadcastInDim S4096x16384 ![] bcast_S_S4096x16384 main_cst_0
  let main_v6 : IVec S4096x16384 1 := cmpf .olt main_v4 main_v5
  let main_c_1 : IVec S_ 1 := constantI S_ 1 1#1
  let main_v7 : IVec S_ 1 := (fun x v => Host.reduce IntOp.andi x v reducesTo_S4096x16384_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2048x4x16384 : Shape := ⟨3, ![2048, 4, 16384]⟩
abbrev S4096x16384 : Shape := ⟨2, ![4096, 16384]⟩
abbrev S4096 : Shape := ⟨1, ![4096]⟩
abbrev S8192x16384 : Shape := ⟨2, ![8192, 16384]⟩
abbrev S1x4096 : Shape := ⟨2, ![1, 4096]⟩
abbrev S8192x4096 : Shape := ⟨2, ![8192, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩
abbrev S2048x4x4096 : Shape := ⟨3, ![2048, 4, 4096]⟩

abbrev nBuf : Space → Nat
  | .hbm => 8
  | .vmem => 9
  | .smem => 0
  | _ => 0

abbrev bufTy : (tb : Table) → Fin (tcTables nBuf tb) → BufTy
  | .hbm, ⟨0, _⟩ => ⟨S2048x4x16384, .f32⟩
  | .hbm, ⟨1, _⟩ => ⟨S4096x16384, .f32⟩
  | .hbm, ⟨2, _⟩ => ⟨S4096, .f32⟩
  | .hbm, ⟨3, _⟩ => ⟨S8192x16384, .f32⟩
  | .hbm, ⟨4, _⟩ => ⟨S4096x16384, .bf16⟩
  | .hbm, ⟨5, _⟩ => ⟨S1x4096, .f32⟩
  | .hbm, ⟨6, _⟩ => ⟨S8192x4096, .f32⟩
  | .hbm, ⟨7, _⟩ => ⟨S2048x4x4096, .f32⟩
  | .local _ .vmem, ⟨0, _⟩ => ⟨S2048x512, .f32⟩
  | .local _ .vmem, ⟨1, _⟩ => ⟨S2048x512, .f32⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S2048x4x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 32], ![false, false, false]⟩

def k0_cond2 (i : grid0.Coords) : BitVec 1 :=
  let arg2 : BitVec 32 := BitVec.ofNat 32 (i 2).val
  let c31_i32 : BitVec 32 := 31#32
  let v14 : BitVec 1 := Scalar.cmpi .eq arg2 c31_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S2048x4x16384_S8192x16384 : S2048x4x16384.ShapeCasts S8192x16384
  bitsLt_bf16_f32 : FTy.bits .bf16 < FTy.bits .f32
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S2048x4x4096 : S8192x4096.ShapeCasts S2048x4x4096
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x16384.size a
  hwx0_0 : ∀ i : grid0.Coords, EltTy.bits .f32 = 32 ∨ (Rect.block (s := S8192x16384) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x16384.size a
  hwx0_1 : ∀ i : grid0.Coords, EltTy.bits .bf16 = 32 ∨ (Rect.block (s := S4096x16384) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x4x16384 : Shape := ⟨3, ![2048, 4, 16384]⟩
abbrev S4096x16384 : Shape := ⟨2, ![4096, 16384]⟩
abbrev S4096 : Shape := ⟨1, ![4096]⟩
abbrev S2048x4x4096 : Shape := ⟨3, ![2048, 4, 4096]⟩
abbrev S1x1x4096 : Shape := ⟨3, ![1, 1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2048x4x16384, .f32⟩
  | .hbm, ⟨1, _⟩ => ⟨S4096x16384, .f32⟩
  | .hbm, ⟨2, _⟩ => ⟨S4096, .f32⟩
  | .hbm, ⟨3, _⟩ => ⟨S2048x4x4096, .f32⟩
  | .hbm, ⟨4, _⟩ => ⟨S1x1x4096, .f32⟩
  | .hbm, ⟨5, _⟩ => ⟨S2048x4x4096, .f32⟩
  | .hbm, ⟨6, _⟩ => ⟨S2048x4x4096, .f32⟩
  | _, _ => ⟨S2048x4x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S2048x4x4096_0_1_2 : S1x1x4096.BroadcastsInDim S2048x4x4096 (![0, 1, 2] : Fin 3 → Fin S2048x4x4096.rank)
  dot_S2048x4x16384_S4096x16384_S2048x4x4096_2_1_01_0_n_n_wf : DotDims.WF S2048x4x16384 S4096x16384 S2048x4x4096 [2] [1] [0, 1] [0] [] []

variable [Facts₀]

def dot_S2048x4x16384_S4096x16384_S2048x4x4096_2_1_01_0_n_n : DotDims S2048x4x16384 S4096x16384 S2048x4x4096 where
  lhsContracting := [2]
  rhsContracting := [1]
  lhsNonContracting := [0, 1]
  rhsNonContracting := [0]
  lhsBatch := []
  rhsBatch := []
  wf := dot_S2048x4x16384_S4096x16384_S2048x4x4096_2_1_01_0_n_n_wf

class Facts : Prop extends Facts₀ where

variable [Facts]
-- ==== Proof.Pieces.lean ====
/-
  What one grid point leaves behind, read as values. The body keeps a [2048, 1024] accumulator in a scratch
  buffer across the 32 points that share an output block:

    first point of a block (case A)   acc ← 0, then acc ← acc + x · wᵀ            : leaves  0 + x · wᵀ
    a middle point        (case B)    acc ← acc + x · wᵀ                          : leaves  acc + x · wᵀ
    last point of a block (case C)    acc ← acc + x · wᵀ, out ← acc + bias        : leaves  (acc + x · wᵀ) + bias in the output

  where `x` is the point's [2048, 512] block of the input, `w` its [1024, 512] block of the weight and `bias` its
  [1, 1024] block of the bias. Every load and store goes through a whole buffer, so each store leaves exactly its
  payload and a load after a store reads that payload back.
-/
import proofs.«130223_j44856638439901_2_alg».proof.Proof.Gen.KernelIdeal.Frame
import Idealize.ShloMosaic.Lib.Pipeline.Value
import Idealize.ShloMosaic.Lib.Tactic

set_option maxRecDepth 16384

noncomputable section
open Idealize.ShloMosaic Idealize.ShloMosaic.TcCoe Idealize.ShloMosaic.Tactic Idealize.SL.Sem
namespace Cert.KernelIdeal.Pieces
open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- Case A leaves `0 + x · wᵀ` in the accumulator: the zero block stored first is what the accumulating
    step reads back. -/
theorem scratch_A (c : Dev nD) (i : grid0.Coords) (a3 : Memref sig .tc .vmem S2048x512 .f32) (h3 : a3.IsWhole) (a4 : Memref sig .tc .vmem S1024x512 .bf16) (h4 : a4.IsWhole) (a5 : Memref sig .tc .vmem S1x1024 .f32) (h5 : a5.IsWhole) (a6 : Memref sig .tc .vmem S2048x1024 .f32) (h6 : a6.IsWhole) (a7 : Memref sig .tc .vmem S2048x1024 .f32) (h7 : a7.IsWhole) (hc0 : cond0_0 i) (hc1 : ¬cond0_1 i)
    (x0 : Vec F S2048x512 .f32) (x1 : Vec F S1024x512 .bf16) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S2048x1024) hz, View.readCov_unit_zero (S := S2048x1024) _ hz]
  simp only [View.readAt_eq_ld, h3.read_unread, h4.read_unread, View.ld_unit_zero (S := S2048x512) hz,
    View.ld_unit_zero (S := S1024x512) hz]

/-- Case B leaves `acc + x · wᵀ` in the accumulator, `acc` what the point before left there. -/
theorem scratch_B (c : Dev nD) (i : grid0.Coords) (a3 : Memref sig .tc .vmem S2048x512 .f32) (h3 : a3.IsWhole) (a4 : Memref sig .tc .vmem S1024x512 .bf16) (h4 : a4.IsWhole) (a5 : Memref sig .tc .vmem S1x1024 .f32) (h5 : a5.IsWhole) (a6 : Memref sig .tc .vmem S2048x1024 .f32) (h6 : a6.IsWhole) (a7 : Memref sig .tc .vmem S2048x1024 .f32) (h7 : a7.IsWhole) (hc0 : ¬cond0_0 i) (hc1 : ¬cond0_1 i)
    (x0 : Vec F S2048x512 .f32) (x1 : Vec F S1024x512 .bf16) (x2 : Vec F S1x1024 .f32) (xs0 : Vec F S2048x1024 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero hz]
  simp only [View.readAt_eq_ld, h3.read_unread, h4.read_unread, h7.read_unread, View.ld_unit_zero (S := S2048x512) hz,
    View.ld_unit_zero (S := S1024x512) hz, View.ld_unit_zero (S := S2048x1024) hz]

/-- Case C leaves `acc + x · wᵀ` in the accumulator as well, -/
theorem scratch_C (c : Dev nD) (i : grid0.Coords) (a3 : Memref sig .tc .vmem S2048x512 .f32) (h3 : a3.IsWhole) (a4 : Memref sig .tc .vmem S1024x512 .bf16) (h4 : a4.IsWhole) (a5 : Memref sig .tc .vmem S1x1024 .f32) (h5 : a5.IsWhole) (a6 : Memref sig .tc .vmem S2048x1024 .f32) (h6 : a6.IsWhole) (a7 : Memref sig .tc .vmem S2048x1024 .f32) (h7 : a7.IsWhole) (hc0 : ¬cond0_0 i) (hc1 : cond0_1 i)
    (x0 : Vec F S2048x512 .f32) (x1 : Vec F S1024x512 .bf16) (x2 : Vec F S1x1024 .f32) (xs0 : Vec F S2048x1024 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S2048x512) hz,
    View.ld_unit_zero (S := S1024x512) hz, View.ld_unit_zero (S := S2048x1024) hz]

/-- and in the output buffer that accumulator, read back, plus the bias row broadcast down the rows. -/
theorem out_C (c : Dev nD) (i : grid0.Coords) (a3 : Memref sig .tc .vmem S2048x512 .f32) (h3 : a3.IsWhole) (a4 : Memref sig .tc .vmem S1024x512 .bf16) (h4 : a4.IsWhole) (a5 : Memref sig .tc .vmem S1x1024 .f32) (h5 : a5.IsWhole) (a6 : Memref sig .tc .vmem S2048x1024 .f32) (h6 : a6.IsWhole) (a7 : Memref sig .tc .vmem S2048x1024 .f32) (h7 : a7.IsWhole) (hc0 : ¬cond0_0 i) (hc1 : cond0_1 i)
    (x0 : Vec F S2048x512 .f32) (x1 : Vec F S1024x512 .bf16) (x2 : Vec F S1x1024 .f32) (xs0 : Vec F S2048x1024 .f32) :
    out0_C_3 c i a3 h3 a4 h4 a5 h5 a6 h6 a7 h7 hc0 hc1 x0 x1 x2 xs0 = k0_pay3 (k0_pay2 x0 x1 xs0) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz, View.readCov_unit_zero (S := S2048x1024) _ hz]
  simp only [View.readAt_eq_ld, h3.read_unread, h4.read_unread, h5.read_unread, h7.read_unread,
    View.ld_unit_zero (S := S2048x512) hz, View.ld_unit_zero (S := S1024x512) hz, View.ld_unit_zero (S := S2048x1024) hz,
    View.ld_unit_zero (S := S1x1024) hz]

end Cert.KernelIdeal.Pieces
end
-- ==== Proof.Cases.lean ====
/-
  What the accumulator and the output buffer hold after each grid point, case by case.

  Point `t` is the first of its output block when `t % 32 = 0` and the last when `t % 32 = 31`. After point `t`
  the accumulator holds

      t % 32 = 0 :   (zero block) + x_t · w_tᵀ
      otherwise  :   (what point t - 1 left) + x_t · w_tᵀ

  and, when `t % 32 = 31`, the output buffer holds that accumulator plus the point's bias block. Here `x_t`, `w_t`
  are the point's input and weight blocks.
-/
import proofs.«130223_j44856638439901_2_alg».proof.Proof.Pieces

set_option maxRecDepth 16384

noncomputable section
open Idealize.ShloMosaic Idealize.ShloMosaic.TcCoe Idealize.SL.Sem
namespace Cert.KernelIdeal.Cases
open Cert.KernelIdeal Cert.KernelIdeal.Gen
variable {F : FTy → Type} [FloatOps F]
variable (m : (ℓ : Loc nD τ sig) → Buf (Elt F) ℓ)

/-- The point before `t` is on the grid. -/
theorem pred_lt (t : Fin cfg0.N) : t.val - 1 < cfg0.N := Nat.lt_of_le_of_lt (Nat.sub_le _ _) t.isLt

/-- At the first point of an output block the accumulator is left at the zero block plus the block product. -/
theorem acc_first (c : Dev nD) (t : Fin cfg0.N) (h0 : t.val % 32 = 0) :
    (outsAt0 m c t.val t.isLt).2 = k0_pay2 (iblk m c 0 t) (iblk m c 1 t) (k0_pay1 (F := F)) := by
  have h1 : ¬t.val % 32 = 31 := by omega
  rw [outsAt0_A m c t h0 h1]
  dsimp only
  exact Pieces.scratch_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

/-- At every other point it is left at what the point before left plus the block product. -/
theorem acc_next (c : Dev nD) (t : Fin cfg0.N) (h0 : ¬t.val % 32 = 0) :
    (outsAt0 m c t.val t.isLt).2
      = k0_pay2 (iblk m c 0 t) (iblk m c 1 t) (outsAt0 m c (t.val - 1) (pred_lt t)).2 := by
  by_cases h1 : t.val % 32 = 31
  · rw [outsAt0_C m c t h0 h1]
    dsimp only
    exact Pieces.scratch_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (outsAt0 m c (t.val - 1) (pred_lt t)).2
  · rw [outsAt0_B m c t h0 h1]
    dsimp only
    exact Pieces.scratch_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
      (iblk m c 0 t) (iblk m c 1 t) (iblk m c 2 t) (outsAt0 m c (t.val - 1) (pred_lt t)).2

/-- At the last point of an output block the output buffer is left at the accumulator plus the bias block. -/
theorem out_last (c : Dev nD) (t : Fin cfg0.N) (h1 : t.val % 32 = 31) :
    (outsAt0 m c t.val t.isLt).1 = k0_pay3 (outsAt0 m c t.val t.isLt).2 (iblk m c 2 t) := by
  have h0 : ¬t.val % 32 = 0 := by omega
  rw [acc_next m c t h0, outsAt0_C m c t h0 h1]
  dsimp only
  exact Pieces.out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (pred_lt t)).2

end Cert.KernelIdeal.Cases
end
-- ==== Proof.Payloads.lean ====
/-
  The body's three stored values read at an entry, on the extended reals (a change of float format is the
  identity there, and a same-shape cast is the identity everywhere):

    the zero block                      at (p, q) :  0
    acc + x · wᵀ  (the MXU product)     at (p, q) :  acc (p, q) + ∑ kk, x (p, kk) · w (q, kk)
    acc + bias                          at (p, q) :  acc (p, q) + bias (0, q)
-/
import proofs.«130223_j44856638439901_2_alg».proof.Proof.Gen.KernelIdeal.Skeleton
import Idealize.ShloMosaic.Lib.ValueIdx
import Idealize.ShloMosaic.Lib.Pipeline.Value
import Idealize.ShloMosaic.PureOps.Ideal.Laws

noncomputable section
open Idealize.ShloMosaic Idealize.ShloMosaic.TcCoe Idealize.ShloMosaic.ValueIdx
namespace Cert.KernelIdeal.Payloads
open Cert.KernelIdeal Cert.KernelIdeal.Gen

/-- The zero block is `0` everywhere. -/
theorem pay1_apply (j : S2048x1024.Idx) : k0_pay1 (F := Ideal) j = 0 := by
  unfold k0_pay1
  rw [shapeCast_self]
  exact Ideal.ofBits_zero_f32

/-- The left operand's row coordinate at output entry `j` is `j`'s row, -/
theorem lhs_row (j : S2048x1024.Idx) (k : dot_S2048x512_S1024x512_S2048x1024_1_1_0_0_n_n.contr.Idx) : (dot_S2048x512_S1024x512_S2048x1024_1_1_0_0_n_n.lhsIdx j k 0).val = (j 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl

/-- and the right operand's row coordinate is `j`'s column. -/
theorem rhs_row (j : S2048x1024.Idx) (k : dot_S2048x512_S1024x512_S2048x1024_1_1_0_0_n_n.contr.Idx) : (dot_S2048x512_S1024x512_S2048x1024_1_1_0_0_n_n.rhsIdx j k 0).val = (j 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl

/-- The product's left factor at output entry `(p, q)` and contraction position `kk` is `x (p, kk)`: -/
theorem lhs_at (p : Fin 2048) (q : Fin 1024) (kk : Fin 512) :
    dot_S2048x512_S1024x512_S2048x1024_1_1_0_0_n_n.lhsIdx (ix2 p q) ((contrEquiv1 dot_S2048x512_S1024x512_S2048x1024_1_1_0_0_n_n 512 rfl rfl).symm kk) = ix2 p kk := by
  have hk := contrEquiv1_symm_val dot_S2048x512_S1024x512_S2048x1024_1_1_0_0_n_n 512 rfl rfl kk
  refine funext fun a => Fin.ext ?_
  match a with
  | ⟨0, _⟩ => exact lhs_row _ _
  | ⟨1, _⟩ => exact (dot_S2048x512_S1024x512_S2048x1024_1_1_0_0_n_n.lhsIdx_val_of_single rfl _ _).trans hk

/-- and its right factor is `w (q, kk)`: both operands are contracted along their last axis. -/
theorem rhs_at (p : Fin 2048) (q : Fin 1024) (kk : Fin 512) :
    dot_S2048x512_S1024x512_S2048x1024_1_1_0_0_n_n.rhsIdx (ix2 p q) ((contrEquiv1 dot_S2048x512_S1024x512_S2048x1024_1_1_0_0_n_n 512 rfl rfl).symm kk) = ix2 q kk := by
  have hk := contrEquiv1_symm_val dot_S2048x512_S1024x512_S2048x1024_1_1_0_0_n_n 512 rfl rfl kk
  refine funext fun a => Fin.ext ?_
  match a with
  | ⟨0, _⟩ => exact rhs_row _ _
  | ⟨1, _⟩ => exact (dot_S2048x512_S1024x512_S2048x1024_1_1_0_0_n_n.rhsIdx_val_of_single rfl _ _).trans hk

/-- The accumulating step at `(p, q)`: the accumulator there plus the 512 products of row `p` of `x` with
    row `q` of `w`. -/
theorem pay2_apply (x0 : Vec Ideal S2048x512 .f32) (x1 : Vec Ideal S1024x512 .bf16) (a : Vec Ideal S2048x1024 .f32)
    (p : Fin 2048) (q : Fin 1024) :
    k0_pay2 (F := Ideal) x0 x1 a (ix2 p q) = a (ix2 p q) + ∑ kk : Fin 512, x0 (ix2 p kk) * x1 (ix2 q kk) := by
  unfold k0_pay2
  rw [shapeCast_self, shapeCast_self, shapeCast_self]
  refine congrArg (a (ix2 p q) + ·) ?_
  simp only [matmul]
  rw [Ideal.matmul_constant_zero_apply, ← Equiv.sum_comp (contrEquiv1 dot_S2048x512_S1024x512_S2048x1024_1_1_0_0_n_n 512 rfl rfl).symm]
  refine Finset.sum_congr rfl fun kk _ => ?_
  rw [lhs_at, rhs_at]
  rfl

/-- The closing step at `(p, q)`: the accumulator there plus the bias of column `q`. -/
theorem pay3_apply (a : Vec Ideal S2048x1024 .f32) (b : Vec Ideal S1x1024 .f32) (p : Fin 2048) (q : Fin 1024) :
    k0_pay3 (F := Ideal) a b (ix2 p q) = a (ix2 p q) + b (ix2 0 q) := by
  unfold k0_pay3
  rw [shapeCast_self]
  refine congrArg (a (ix2 p q) + ·) ?_
  refine broadcastTo_apply b broadcasts_S1x1024_S2048x1024 (ix2 p q) (ix2 0 q) (fun d => ?_)
  match d with
  | ⟨0, _⟩ => show 0 = if (1 : Nat) = 1 then 0 else _; rw [if_pos rfl]
  | ⟨1, _⟩ => show q.val = if (1024 : Nat) = 1 then 0 else q.val; rw [if_neg (by decide)]

end Cert.KernelIdeal.Payloads
end
-- ==== Proof.Blocks.lean ====
/-
  Where a grid point's blocks sit in the arrays, and what those arrays are.

  The grid is 4 × 4 × 32, its last axis fastest: point `t` has row-block `t / 128`, column-block `t / 32 % 4`
  and contraction block `t % 32`. At point `t`

    the input block   is rows  2048·(t/128) …  and columns 512·(t%32) …  of the flattened input   [8192, 16384],
    the weight block  is rows  1024·(t/32%4) … and columns 512·(t%32) …  of the weight            [4096, 16384],
    the bias block    is columns 1024·(t/32%4) … of the bias row                                  [1, 4096],
    the output block  is rows  2048·(t/128) …  and columns 1024·(t/32%4) … of the result          [8192, 4096].

  The flattened input is the [2048, 4, 16384] argument with its two leading axes merged (row `4 s + b` is `(s, b)`),
  the weight array is the weight argument after a change of float format, and the bias row is the bias argument
  given a leading unit axis.
-/
import proofs.«130223_j44856638439901_2_alg».proof.Proof.Gen.KernelIdeal.Frame.Runs
import Idealize.ShloMosaic.Lib.ValueIdx
import Idealize.ShloMosaic.Lib.Pipeline.Value
import Idealize.ShloMosaic.Lib.StableHlo.Run

set_option maxRecDepth 16384

noncomputable section
open Idealize.ShloMosaic Idealize.ShloMosaic.TcCoe Idealize.ShloMosaic.ValueIdx Idealize.SL.Sem
namespace Cert.KernelIdeal.Blocks
open Cert.KernelIdeal Cert.KernelIdeal.Gen
variable {F : FTy → Type} [FloatOps F]
variable (m : (ℓ : Loc nD τ sig) → Buf (Elt F) ℓ)

/-! ## The block index of each window at a point -/

theorem idx0 : ∀ t : Fin cfg0.N, win0_0.index t (0 : Fin 2) = t.val / 128 ∧ win0_0.index t (1 : Fin 2) = t.val % 32 :=
  (by decide +kernel : ∀ t : Fin grid0.N, _)
theorem idx1 : ∀ t : Fin cfg0.N, win0_1.index t (0 : Fin 2) = t.val / 32 % 4 ∧ win0_1.index t (1 : Fin 2) = t.val % 32 :=
  (by decide +kernel : ∀ t : Fin grid0.N, _)
theorem idx2 : ∀ t : Fin cfg0.N, win0_2.index t (0 : Fin 2) = 0 ∧ win0_2.index t (1 : Fin 2) = t.val / 32 % 4 :=
  (by decide +kernel : ∀ t : Fin grid0.N, _)
theorem idx3 : ∀ t : Fin cfg0.N, win0_3.index t (0 : Fin 2) = t.val / 128 ∧ win0_3.index t (1 : Fin 2) = t.val / 32 % 4 :=
  (by decide +kernel : ∀ t : Fin grid0.N, _)

/-! ## A block's entry is an entry of its array -/

/-- The input block at point `t`, entry `(p, kk)`: the flattened input at row `2048·(t/128) + p`, column `512·(t%32) + kk`. -/
theorem iblk0_apply (c : Dev nD) (t : Fin cfg0.N) (p : Fin 2048) (kk : Fin 512) (r : Fin 8192) (k : Fin 16384)
    (hr : r.val = 2048 * (t.val / 128) + p.val) (hk : k.val = 512 * (t.val % 32) + kk.val) :
    (iblk m c 0 t : Vec F S2048x512 .f32) (ix2 p kk) = V m c main_v0 (ix2 r k) := by
  unfold iblk
  rw [View.read_apply]
  show V m c main_v0 _ = V m c main_v0 _
  refine congrArg (V m c main_v0) (funext fun a => Fin.ext ?_)
  match a with
  | ⟨0, _⟩ => show win0_0.index t 0 * 2048 + 1 * p.val = r.val; rw [(idx0 t).1, hr]; omega
  | ⟨1, _⟩ => show win0_0.index t 1 * 512 + 1 * kk.val = k.val; rw [(idx0 t).2, hk]; omega

/-- The weight block at point `t`, entry `(q, kk)`: the weight array at row `1024·(t/32%4) + q`, column `512·(t%32) + kk`. -/
theorem iblk1_apply (c : Dev nD) (t : Fin cfg0.N) (q : Fin 1024) (kk : Fin 512) (n : Fin 4096) (k : Fin 16384)
    (hn : n.val = 1024 * (t.val / 32 % 4) + q.val) (hk : k.val = 512 * (t.val % 32) + kk.val) :
    (iblk m c 1 t : Vec F S1024x512 .bf16) (ix2 q kk) = V m c main_v1 (ix2 n k) := by
  unfold iblk
  rw [View.read_apply]
  show V m c main_v1 _ = V m c main_v1 _
  refine congrArg (V m c main_v1) (funext fun a => Fin.ext ?_)
  match a with
  | ⟨0, _⟩ => show win0_1.index t 0 * 1024 + 1 * q.val = n.val; rw [(idx1 t).1, hn]; omega
  | ⟨1, _⟩ => show win0_1.index t 1 * 512 + 1 * kk.val = k.val; rw [(idx1 t).2, hk]; omega

/-- The bias block at point `t`, entry `(0, q)`: the bias row at column `1024·(t/32%4) + q`. -/
theorem iblk2_apply (c : Dev nD) (t : Fin cfg0.N) (q : Fin 1024) (n : Fin 4096)
    (hn : n.val = 1024 * (t.val / 32 % 4) + q.val) :
    (iblk m c 2 t : Vec F S1x1024 .f32) (ix2 0 q) = V m c main_v2 (ix2 0 n) := by
  unfold iblk
  rw [View.read_apply]
  show V m c main_v2 _ = V m c main_v2 _
  refine congrArg (V m c main_v2) (funext fun a => Fin.ext ?_)
  match a with
  | ⟨0, _⟩ => show win0_2.index t 0 * 1 + 1 * 0 = 0; rw [(idx2 t).1]
  | ⟨1, _⟩ => show win0_2.index t 1 * 1024 + 1 * q.val = n.val; rw [(idx2 t).2, hn]; omega

/-! ## The arrays the region finds, from the arguments -/

/-- The flattened input is the input argument reshaped. -/
theorem V_v0 (c : Dev nD) :
    (V m c main_v0 : S8192x16384.Idx → Elt F .f32)
      = shapeCast S8192x16384 (m ((c : Thread nD τ).loc main_arg0)) shapeCasts_S2048x4x16384_S8192x16384 := by
  show StableHlo.after hostOps0 (fun b => m (c, b)) (Proc.devRef .tc main_v0) = _
  after_results
  rfl

/-- The weight array is the weight argument in the narrower float format. -/
theorem V_v1 (c : Dev nD) :
    (V m c main_v1 : S4096x16384.Idx → Elt F .bf16)
      = truncf .bf16 (m ((c : Thread nD τ).loc main_arg1) : FVec F S4096x16384 .f32) bitsLt_bf16_f32 := by
  show StableHlo.after hostOps0 (fun b => m (c, b)) (Proc.devRef .tc main_v1) = _
  after_results

/-- The bias row is the bias argument reshaped. -/
theorem V_v2 (c : Dev nD) :
    (V m c main_v2 : S1x4096.Idx → Elt F .f32)
      = shapeCast S1x4096 (m ((c : Thread nD τ).loc main_arg2)) shapeCasts_S4096_S1x4096 := by
  show StableHlo.after hostOps0 (fun b => m (c, b)) (Proc.devRef .tc main_v2) = _
  after_results
  rfl

end Cert.KernelIdeal.Blocks
end
-- ==== Proof.LibBlockSum.lean ====
/-
  Blocked sums and running accumulators, over any commutative additive monoid (the extended reals among them:
  their addition is commutative and associative with `0` neutral, so none of this asks for finiteness).

  * `sum_blocks`: a sum of `n * B` terms is the sum over `n` consecutive blocks of the `B` terms in each.
  * `acc`: an accumulator that starts at `0` and adds one summand per step; `acc_zero`, `acc_succ` are its
    two steps and `acc_last_blocks` says that after the last of `n` block sums it holds the whole sum.
-/
import Idealize.ShloMosaic.Lib.ValueIdx

namespace Cert.BlockSum

variable {M : Type*} [AddCommMonoid M]

/-- A sum over `Fin (n * B)` is the sum over the blocks `b : Fin n` of the sums over the positions
    `p : Fin B` inside a block, the term at `B * b + p`. -/
theorem sum_blocks (n B : ℕ) (f : ℕ → M) :
    ∑ k : Fin (n * B), f k.val = ∑ b : Fin n, ∑ p : Fin B, f (B * b.val + p.val) := by
  rw [← Finset.sum_product', Finset.univ_product_univ, ← Equiv.sum_comp finProdFinEquiv]
  refine Finset.sum_congr rfl (fun x _ => ?_)
  obtain ⟨b, p⟩ := x
  show f (p.val + B * b.val) = f (B * b.val + p.val)
  rw [Nat.add_comm]

/-- The accumulator after step `j`: `0`, then the summands `g 0 … g j` added in order. -/
def acc (g : ℕ → M) (j : ℕ) : M := 0 + ∑ b ∈ Finset.range (j + 1), g b

/-- After the first step the accumulator holds `0 + g 0`. -/
theorem acc_zero (g : ℕ → M) : acc g 0 = 0 + g 0 := by
  unfold acc
  rw [Finset.sum_range_one]

/-- Each later step adds its summand to what the step before left. -/
theorem acc_succ (g : ℕ → M) (j : ℕ) : acc g (j + 1) = acc g j + g (j + 1) := by
  unfold acc
  rw [Finset.sum_range_succ _ (j + 1), add_assoc]

/-- When the summands are the `n` block sums of `f`, the accumulator after the last block holds the whole sum. -/
theorem acc_last_blocks (n B : ℕ) (f : ℕ → M) :
    acc (fun b => ∑ p : Fin B, f (B * b + p.val)) n = ∑ k : Fin ((n + 1) * B), f k.val := by
  unfold acc
  rw [zero_add, Finset.sum_range (fun b => ∑ p : Fin B, f (B * b + p.val))]
  exact (sum_blocks (n + 1) B f).symm

end Cert.BlockSum
-- ==== Proof.Spec.lean ====
/-
  The mathematics both programs compute, with no program in sight.

  For a row `x` and a row `w` of length 16384 (one row of the flattened input, one row of the weight) the
  contraction `∑ k, x k · w k` is cut into 32 consecutive blocks of 512 terms. An accumulator that starts at
  `0`, adds block 0, then block 1, … holds after block `j` the value `0 + ∑_{b ≤ j} (block b)`, and after
  block 31 the whole contraction: on the extended reals addition is commutative and associative and `0` is
  neutral, so no finiteness of the entries is needed.
-/
import proofs.«130223_j44856638439901_2_alg».proof.Proof.LibBlockSum

noncomputable section

namespace Cert.Spec

/-- The `k`-th term of the contraction of the rows `x` and `w`, `0` past the end. -/
def term (x w : Fin 16384 → EReal) (k : ℕ) : EReal :=
  if h : k < 16384 then x ⟨k, h⟩ * w ⟨k, h⟩ else 0

/-- Block `b` of the contraction: its 512 terms from `512 * b` on. -/
def blockDot (x w : Fin 16384 → EReal) (b : ℕ) : EReal :=
  ∑ kk : Fin 512, term x w (512 * b + kk.val)

/-- The accumulator after block `j`: `0`, then the blocks `0 … j` added. -/
def acc (x w : Fin 16384 → EReal) (j : ℕ) : EReal := BlockSum.acc (blockDot x w) j

theorem acc_zero (x w : Fin 16384 → EReal) : acc x w 0 = 0 + blockDot x w 0 :=
  BlockSum.acc_zero _

theorem acc_succ (x w : Fin 16384 → EReal) (j : ℕ) : acc x w (j + 1) = acc x w j + blockDot x w (j + 1) :=
  BlockSum.acc_succ _ j

/-- After the last block the accumulator holds the whole contraction. -/
theorem acc_last (x w : Fin 16384 → EReal) : acc x w 31 = ∑ k : Fin 16384, x k * w k := by
  refine (BlockSum.acc_last_blocks (M := EReal) 31 512 (term x w)).trans ?_
  refine Finset.sum_congr rfl (fun k _ => ?_)
  unfold term
  rw [dif_pos k.isLt]

end Cert.Spec

end
-- ==== Proof.Accum.lean ====
/-
  The result array of the kernel's one launch, on the extended reals.

  Write `X` for the flattened input [8192, 16384], `W` for the weight array [4096, 16384] and `B` for the bias
  row [1, 4096], as the launch finds them. Output block `(I, J)` is visited by the 32 consecutive points
  `t = (4 I + J)·32 + j`, `j = 0 … 31`, and point `t` adds to the accumulator the products of the `j`-th 512
  columns. By induction on the point, after point `t` the accumulator's entry `(p, q)` is

      0 + ∑_{b ≤ t % 32} ∑_{kk < 512} X (r, 512 b + kk) · W (n, 512 b + kk),      r = 2048 I + p,  n = 1024 J + q,

  so the last point of the block writes back `(∑_k X (r, k) · W (n, k)) + B (0, n)`: the blocks written back
  are the restrictions of ONE function of the arrays, and they tile the result array.
-/
import proofs.«130223_j44856638439901_2_alg».proof.Proof.Cases
import proofs.«130223_j44856638439901_2_alg».proof.Proof.Payloads
import proofs.«130223_j44856638439901_2_alg».proof.Proof.Blocks
import proofs.«130223_j44856638439901_2_alg».proof.Proof.Spec

set_option maxRecDepth 16384

noncomputable section
open Idealize.ShloMosaic Idealize.ShloMosaic.TcCoe Idealize.ShloMosaic.ValueIdx Idealize.SL.Sem
open Idealize.ShloMosaic.Pipeline (Dat)
namespace Cert.KernelIdeal.Accum
open Cert.KernelIdeal Cert.KernelIdeal.Gen
variable (m : (ℓ : Loc nD τ sig) → Buf (Elt Ideal) ℓ)

/-- Row `r` of the flattened input, as the launch finds it. -/
def xrow (c : Dev nD) (r : Fin 8192) : Fin 16384 → EReal := fun k => V m c main_v0 (ix2 r k)
/-- Row `n` of the weight array, as the launch finds it. -/
def wrow (c : Dev nD) (n : Fin 4096) : Fin 16384 → EReal := fun k => V m c main_v1 (ix2 n k)

/-- The product of the point's blocks at `(p, q)` is block `t % 32` of the contraction of row `r` of the
    input with row `n` of the weight. -/
theorem block_eq (c : Dev nD) (t : Fin cfg0.N) (p : Fin 2048) (q : Fin 1024) (r : Fin 8192) (n : Fin 4096)
    (hr : r.val = 2048 * (t.val / 128) + p.val) (hn : n.val = 1024 * (t.val / 32 % 4) + q.val)
    (x0 : Vec Ideal S2048x512 .f32) (x1 : Vec Ideal S1024x512 .bf16) (hx0 : x0 = iblk m c 0 t) (hx1 : x1 = iblk m c 1 t) :
    (∑ kk : Fin 512, x0 (ix2 p kk) * x1 (ix2 q kk)) = Spec.blockDot (xrow m c r) (wrow m c n) (t.val % 32) := by
  subst hx0 hx1
  unfold Spec.blockDot
  refine Finset.sum_congr rfl fun kk _ => ?_
  have hlt : 512 * (t.val % 32) + kk.val < 16384 := by have := kk.isLt; omega
  unfold Spec.term
  rw [dif_pos hlt, Blocks.iblk0_apply m c t p kk r ⟨_, hlt⟩ hr rfl, Blocks.iblk1_apply m c t q kk n ⟨_, hlt⟩ hn rfl]
  rfl

/-- The first point of a block leaves the accumulator at `0` plus block 0. -/
theorem step_first (c : Dev nD) (t : Fin cfg0.N) (h0 : t.val % 32 = 0) (p : Fin 2048) (q : Fin 1024) (r : Fin 8192) (n : Fin 4096)
    (hr : r.val = 2048 * (t.val / 128) + p.val) (hn : n.val = 1024 * (t.val / 32 % 4) + q.val) :
    (outsAt0 m c t.val t.isLt).2 (ix2 p q) = Spec.acc (xrow m c r) (wrow m c n) (t.val % 32) := by
  refine (congrFun (Cases.acc_first m c t h0) (ix2 p q)).trans ?_
  refine (Payloads.pay2_apply (iblk m c 0 t) (iblk m c 1 t) (k0_pay1 (F := Ideal)) p q).trans ?_
  rw [Payloads.pay1_apply, block_eq m c t p q r n hr hn (iblk m c 0 t) (iblk m c 1 t) rfl rfl, h0, Spec.acc_zero]

/-- THE ACCUMULATOR after every point, by induction on the point. -/
theorem acc_eq (c : Dev nD) : ∀ (k : ℕ) (t : Fin cfg0.N), t.val = k → ∀ (p : Fin 2048) (q : Fin 1024) (r : Fin 8192) (n : Fin 4096),
    r.val = 2048 * (t.val / 128) + p.val → n.val = 1024 * (t.val / 32 % 4) + q.val →
    (outsAt0 m c t.val t.isLt).2 (ix2 p q) = Spec.acc (xrow m c r) (wrow m c n) (t.val % 32) := by
  intro k
  induction k with
  | zero =>
    intro t ht p q r n hr hn
    exact step_first m c t (by omega) p q r n hr hn
  | succ k ih =>
    intro t ht p q r n hr hn
    by_cases h0 : t.val % 32 = 0
    · exact step_first m c t h0 p q r n hr hn
    · have ihp := ih ⟨t.val - 1, Cases.pred_lt t⟩ (by show t.val - 1 = k; omega) p q r n
        (by show r.val = 2048 * ((t.val - 1) / 128) + p.val; omega)
        (by show n.val = 1024 * ((t.val - 1) / 32 % 4) + q.val; omega)
      refine (congrFun (Cases.acc_next m c t h0) (ix2 p q)).trans ?_
      refine (Payloads.pay2_apply (iblk m c 0 t) (iblk m c 1 t) (outsAt0 m c (t.val - 1) (Cases.pred_lt t)).2 p q).trans ?_
      rw [block_eq m c t p q r n hr hn (iblk m c 0 t) (iblk m c 1 t) rfl rfl]
      have e : t.val % 32 = (t.val - 1) % 32 + 1 := by omega
      rw [e, Spec.acc_succ]
      exact congrArg (· + _) ihp

/-- WHAT A CLOSING POINT LEAVES in the output buffer at `(p, q)`: the whole contraction plus the bias. -/
theorem out_eq (c : Dev nD) (t : Fin cfg0.N) (h1 : t.val % 32 = 31) (p : Fin 2048) (q : Fin 1024) (r : Fin 8192) (n : Fin 4096)
    (hr : r.val = 2048 * (t.val / 128) + p.val) (hn : n.val = 1024 * (t.val / 32 % 4) + q.val) :
    (outsAt0 m c t.val t.isLt).1 (ix2 p q)
      = (∑ k : Fin 16384, xrow m c r k * wrow m c n k) + V m c main_v2 (ix2 0 n) := by
  refine (congrFun (Cases.out_last m c t h1) (ix2 p q)).trans ?_
  refine (Payloads.pay3_apply (outsAt0 m c t.val t.isLt).2 (iblk m c 2 t) p q).trans ?_
  rw [acc_eq m c t.val t rfl p q r n hr hn, h1, Spec.acc_last, Blocks.iblk2_apply m c t q n hn]

/-! ## The result array -/

/-- The result array's entry `(r, n)`. -/
def entry (c : Dev nD) (r : Fin 8192) (n : Fin 4096) : EReal :=
  (∑ k : Fin 16384, xrow m c r k * wrow m c n k) + V m c main_v2 (ix2 0 n)

/-- The result array: one function of the arrays the launch finds. -/
def G (c : Dev nD) : S8192x4096.Idx → Elt Ideal .f32 :=
  fun i => entry m c ⟨(i 0).val, idx2_lt0 i⟩ ⟨(i 1).val, idx2_lt1 i⟩

/-- What a closing point writes back is its block of `G`. -/
theorem flushed_eq (c : Dev nD) (t : Fin cfg0.N) (hf : (cfg0.win 3).flush t = true) :
    (dats m 0 c).flushed 3 t = ((cfg0.win 3).blk t).view.read (Elt Ideal) (G m c) := by
  have h1 : t.val % 32 = 31 := (flush0_3 t).mp hf
  show (cfg0.win 3).cut (grid0.coords t) ((dats m 0 c).after 3 t) = _
  rw [after0_3]
  funext j
  obtain ⟨p, q, rfl⟩ : ∃ (p : Fin 2048) (q : Fin 1024), j = ix2 p q := ⟨j 0, j 1, eq_ix2 j⟩
  rw [View.read_apply]
  show (outsAt0 m c t.val t.isLt).1 (ix2 p q) = entry m c ⟨_, _⟩ ⟨_, _⟩
  refine out_eq m c t h1 p q _ _ ?_ ?_
  · show win0_3.index t 0 * 2048 + 1 * p.val = 2048 * (t.val / 128) + p.val
    rw [(Blocks.idx3 t).1]; omega
  · show win0_3.index t 1 * 1024 + 1 * q.val = 1024 * (t.val / 32 % 4) + q.val
    rw [(Blocks.idx3 t).2]; omega

/-- An entry of the result array is in point `t`'s block iff each coordinate is in the block's range. -/
theorem mem_blk (t : Fin cfg0.N) (i : S8192x4096.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v3).slice (win0_3.rect t)).set ↔ _
  rw [View.set_slice_whole, Rect.mem_set_unit]
  exact Iff.rfl

/-- Every entry is in the block of a closing point: entry `(r, n)` in that of the last point of block
    `(r / 2048, n / 1024)`. -/
theorem cover (i : S8192x4096.Idx) :
    ∃ t : Fin cfg0.N, (cfg0.win 3).flush t = true ∧ i ∈ ((cfg0.win 3).blk t).view.set := by
  have h0 : (i 0).val < 8192 := idx2_lt0 i
  have h1 : (i 1).val < 4096 := idx2_lt1 i
  have hN : cfg0.N = 512 := N_0
  obtain ⟨tv, htv⟩ : ∃ tv : ℕ, tv = ((i 0).val / 2048 * 4 + (i 1).val / 1024) * 32 + 31 := ⟨_, rfl⟩
  have hlt : tv < cfg0.N := by rw [hN]; omega
  refine ⟨⟨tv, hlt⟩, (flush0_3 ⟨tv, hlt⟩).mpr (by show tv % 32 = 31; omega), ?_⟩
  rw [mem_blk]
  intro a
  match a with
  | ⟨0, _⟩ =>
    show win0_3.index ⟨tv, hlt⟩ 0 * 2048 ≤ (i 0).val ∧ (i 0).val < win0_3.index ⟨tv, hlt⟩ 0 * 2048 + 2048
    rw [(Blocks.idx3 ⟨tv, hlt⟩).1]; show tv / 128 * 2048 ≤ (i 0).val ∧ (i 0).val < tv / 128 * 2048 + 2048; omega
  | ⟨1, _⟩ =>
    show win0_3.index ⟨tv, hlt⟩ 1 * 1024 ≤ (i 1).val ∧ (i 1).val < win0_3.index ⟨tv, hlt⟩ 1 * 1024 + 1024
    rw [(Blocks.idx3 ⟨tv, hlt⟩).2]; show tv / 32 % 4 * 1024 ≤ (i 1).val ∧ (i 1).val < tv / 32 % 4 * 1024 + 1024; omega

/-- THE RESULT ARRAY after the launch is `G`. -/
theorem final (c : Dev nD) : (dats m 0 c).arrAt 3 cfg0.N = G m c :=
  (dats m 0 c).arrAt_eq_of_cover 3 (G m c) (flushed_eq m c) cover

end Cert.KernelIdeal.Accum
end
-- ==== Proof.Result.lean ====
/-
  The kernel program's result, from its arguments.

  After the launch the host splits the result array's row axis back in two: `out (s, b, n) = G (4 s + b, n)`.
  The flattened input's row `4 s + b` is the input's `(s, b)`, the weight array is the weight (a change of
  float format is the identity on the extended reals) and the bias row is the bias, so

      out (s, b, n) = (∑ k, input (s, b, k) · weight (n, k)) + bias n.
-/
import proofs.«130223_j44856638439901_2_alg».proof.Proof.Accum

set_option maxRecDepth 16384

noncomputable section
open Idealize.ShloMosaic Idealize.ShloMosaic.TcCoe Idealize.ShloMosaic.ValueIdx Idealize.SL.Sem
open Idealize.ShloMosaic.Pipeline (Dat)
namespace Cert.KernelIdeal.Result
open Cert.KernelIdeal Cert.KernelIdeal.Gen
variable (m : (ℓ : Loc nD τ sig) → Buf (Elt Ideal) ℓ) (ρ : Dev nD → PrngReg)

/-- The program's result: the launch's result array with its rows split into `(s, b)`. -/
def result (c : Dev nD) : S2048x4x4096.Idx → Elt Ideal .f32 :=
  shapeCast S2048x4x4096 (Accum.G m c) shapeCasts_S8192x4096_S2048x4x4096

/-- The host operation after the launch leaves that in the result buffer. -/
theorem tail_eq (c : Dev nD) :
    Pipeline.afterTail₀ cfgs (dats m) 0 (V0 m) [hostOps1] c main_v4 = result m c := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = Accum.G m c :=
    (Pipeline.withArrays_arr spec0 launch0.win.arr_inj c (V0 m c) (fun w => (dats m 0 c).arrAt w cfg0.N) 3).trans
      (Accum.final m c)
  rw [e]
  rfl

/-- THE RUN, READ: every weakly fair execution of the kernel program ends with its result buffer at `result` and
    its three arguments as they were. -/
theorem run : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

/-- The result at `(s, b, n)`: the contraction of the input's `(s, b)` row with the weight's row `n`, plus `bias n`. -/
theorem result_apply (c : Dev nD) (s : Fin 2048) (b : Fin 4) (n : Fin 4096)
    (x0 : (⟨S2048x4x16384, .f32⟩ : BufTy).Contents (Elt Ideal)) (x1 : (⟨S4096x16384, .f32⟩ : BufTy).Contents (Elt Ideal))
    (x2 : (⟨S4096, .f32⟩ : BufTy).Contents (Elt Ideal))
    (h0 : x0 = m ((c.tc : Thread nD τ).loc main_arg0)) (h1 : x1 = m ((c.tc : Thread nD τ).loc main_arg1))
    (h2 : x2 = m ((c.tc : Thread nD τ).loc main_arg2)) :
    result m c (ix3 s b n) = (∑ k : Fin 16384, x0 (ix3 s b k) * x1 (ix2 n k)) + x2 (ix1 n) := by
  subst h0 h1 h2
  have hr : 4 * s.val + b.val < 8192 := by have := s.isLt; have := b.isLt; omega
  unfold result
  rw [shapeCast_apply (Accum.G m c) shapeCasts_S8192x4096_S2048x4x4096 (ix3 s b n) (ix2 ⟨4 * s.val + b.val, hr⟩ n) (by
    show (S8192x4096.rowMajor (ix2 ⟨4 * s.val + b.val, hr⟩ n)).val = (S2048x4x4096.rowMajor (ix3 s b n)).val
    rw [Shape.rowMajor_val_two, Shape.rowMajor_val_three]
    show (4 * s.val + b.val) * 4096 + n.val = (s.val * 4 + b.val) * 4096 + n.val
    omega)]
  show Accum.entry m c ⟨4 * s.val + b.val, _⟩ n = _
  unfold Accum.entry Accum.xrow Accum.wrow
  rw [Blocks.V_v0, Blocks.V_v1, Blocks.V_v2]
  refine congrArg₂ (· + ·) ?_ ?_
  · refine Finset.sum_congr rfl fun k _ => ?_
    rw [shapeCast_apply (m ((c.tc : Thread nD τ).loc main_arg0)) shapeCasts_S2048x4x16384_S8192x16384
      (ix2 ⟨4 * s.val + b.val, hr⟩ k) (ix3 s b k) (by
        show (S2048x4x16384.rowMajor (ix3 s b k)).val = (S8192x16384.rowMajor (ix2 ⟨4 * s.val + b.val, hr⟩ k)).val
        rw [Shape.rowMajor_val_two, Shape.rowMajor_val_three]
        show (s.val * 4 + b.val) * 16384 + k.val = (4 * s.val + b.val) * 16384 + k.val
        omega)]
    rfl
  · exact shapeCast_apply (m ((c.tc : Thread nD τ).loc main_arg2)) shapeCasts_S4096_S1x4096 (ix2 0 n) (ix1 n) (by
      show (S4096.rowMajor (ix1 n)).val = (S1x4096.rowMajor (ix2 0 n)).val
      rw [Shape.rowMajor_val_two, Shape.rowMajor_val_one]
      show n.val = 0 * 4096 + n.val
      omega)

end Cert.KernelIdeal.Result
end
-- ==== Proof.RefEntry.lean ====
/-
  The reference at an entry. Its last stage adds the bias, broadcast along the two leading axes, to
  the contraction of the input's last axis with the weight's last axis:

      out (s, b, n) = (∑ k, input (s, b, k) · weight (n, k)) + bias n

  on the extended reals.
-/
import proofs.«130223_j44856638439901_2_alg».proof.Proof.Gen.ReferenceIdeal.Read

noncomputable section

open Idealize.ShloMosaic Idealize.ShloMosaic.TcCoe Idealize.ShloMosaic.ValueIdx

namespace Cert.ReferenceIdeal.Entry

open Cert.ReferenceIdeal Cert.ReferenceIdeal.Read

/-- The reference's result at `(s, b, n)`: the sum over `k` of `input (s, b, k) · weight (n, k)`, plus `bias n`. -/
theorem result_apply (x0 : (⟨S2048x4x16384, .f32⟩ : BufTy).Contents (Elt Ideal))
    (x1 : (⟨S4096x16384, .f32⟩ : BufTy).Contents (Elt Ideal)) (x2 : (⟨S4096, .f32⟩ : BufTy).Contents (Elt Ideal))
    (s : Fin 2048) (b : Fin 4) (n : Fin 4096) :
    val_main_v3 (F := Ideal) x0 x1 x2 (ix3 s b n)
      = (∑ k : Fin 16384, x0 (ix3 s b k) * x1 (ix2 n k)) + x2 (ix1 n) := by
  have el : ∀ k : Fin 16384, lidx_main_v0 (ix3 s b n) k = ix3 s b k := fun k =>
    funext fun a => Fin.ext (by match a with | ⟨0, _⟩ => rfl | ⟨1, _⟩ => rfl | ⟨2, _⟩ => rfl)
  have er : ∀ k : Fin 16384, ridx_main_v0 (ix3 s b n) k = ix2 n k := fun k =>
    funext fun a => Fin.ext (by match a with | ⟨0, _⟩ => rfl | ⟨1, _⟩ => rfl)
  have e1 : idx_main_v1 (idx_main_v2 (ix3 s b n)) = ix1 n :=
    funext fun a => Fin.ext (by match a with | ⟨0, _⟩ => rfl)
  rw [val_main_v3_apply, val_main_v0_apply, val_main_v2_apply, val_main_v1_apply, e1]
  simp only [el, er]
  rfl

end Cert.ReferenceIdeal.Entry

end
-- ==== Proof.lean ====
/-
  A row-parallel linear layer on one device: for an input [2048, 4, 16384], a weight [4096, 16384] and a bias [4096],

      out (s, b, n) = (∑ k, input (s, b, k) · weight (n, k)) + bias n.

  The kernel flattens the input to [8192, 16384] and computes the product block by block: output block `(I, J)`
  of 2048 × 1024 entries is accumulated over 32 consecutive grid points, point `j` adding the products of the
  `j`-th 512 columns to an accumulator that the first point resets to zero, and the last point writes the
  accumulator plus the bias back; the host then splits the row axis in two again. The reference contracts the
  input's last axis with the weight's last axis in one step and adds the broadcast bias.

  On the extended reals both are the function above. The only law between them is that a sum of 16384 terms is
  the sum of its 32 consecutive blocks of 512, with `0` neutral — addition there is commutative and associative,
  so the precondition that the inputs are finite is never opened. A change of float format (the weight is handed
  to the kernel in a narrower format, and the input block is narrowed before the product) is the identity on the
  extended reals, and the matrix unit's product into a zero accumulator is the plain sum of products.

  The modules: `Spec` (the blocked sum), `Pieces` / `Cases` (what each grid point leaves, as the body's stored
  values), `Payloads` (those values at an entry), `Blocks` (where a point's blocks sit in the arrays, and the
  arrays from the arguments), `Accum` (the accumulator by induction on the point; the result array), `Result`
  (the host's reshape after the launch; the result at an entry), `RefEntry` (the reference at an entry).
-/
import proofs.«130223_j44856638439901_2_alg».proof.Defs
import proofs.«130223_j44856638439901_2_alg».proof.Proof.Gen.Kernel
import proofs.«130223_j44856638439901_2_alg».proof.Proof.Gen.Kernel.Skeleton
import proofs.«130223_j44856638439901_2_alg».proof.Proof.Gen.Kernel.Launch
import proofs.«130223_j44856638439901_2_alg».proof.Proof.Gen.Kernel.Points
import proofs.«130223_j44856638439901_2_alg».proof.Proof.Gen.Kernel.Frame
import proofs.«130223_j44856638439901_2_alg».proof.Proof.Gen.KernelIdeal
import proofs.«130223_j44856638439901_2_alg».proof.Proof.Gen.KernelIdeal.Skeleton
import proofs.«130223_j44856638439901_2_alg».proof.Proof.Gen.KernelIdeal.Launch
import proofs.«130223_j44856638439901_2_alg».proof.Proof.Gen.KernelIdeal.Points
import proofs.«130223_j44856638439901_2_alg».proof.Proof.Gen.KernelIdeal.Frame
import proofs.«130223_j44856638439901_2_alg».proof.Proof.Gen.ReferenceIdeal
import proofs.«130223_j44856638439901_2_alg».proof.Proof.Gen.ReferenceIdeal.Run
import proofs.«130223_j44856638439901_2_alg».proof.Proof.Gen.ReferenceIdeal.Read
import proofs.«130223_j44856638439901_2_alg».proof.Proof.Gen.Pre_finite_inputs
import proofs.«130223_j44856638439901_2_alg».proof.Proof.Result
import proofs.«130223_j44856638439901_2_alg».proof.Proof.RefEntry
import Idealize.ShloMosaic.Adequacy
import Idealize.ShloMosaic.Init

noncomputable section

namespace Cert.Proof

open Idealize.ShloMosaic Idealize.ShloMosaic.ValueIdx Idealize.SL.Sem

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of four host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at `(∑ k, input (s, b, k) · weight (n, k)) + bias n` of arguments that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, (hagree c).1, (hagree c).2.1, (hagree c).2.2]
  funext i
  obtain ⟨s, b, n, rfl⟩ : ∃ (s : Fin 2048) (b : Fin 4) (n : Fin 4096), i = ix3 s b n := ⟨i 0, i 1, i 2, eq_ix3 i⟩
  rw [Cert.ReferenceIdeal.Entry.result_apply]
  exact (Cert.KernelIdeal.Result.result_apply m c s b n _ _ _ rfl rfl rfl).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
